-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x4 : Shape := ⟨2, ![16777216, 4]⟩
abbrev S_ : Shape := ⟨0, ![]⟩

class Facts : Prop where
  bcast_S_S16777216x4 : S_.BroadcastsInDim S16777216x4 (![] : Fin 0 → Fin S16777216x4.rank)
  reducesTo_S16777216x4_S_d0_1 : S16777216x4.ReducesTo [0, 1] S_
  h_S_ : 0 < S_.numel

variable [Facts]

def fn {F : FTy → Type} [FloatOps F] (main_arg0 : FVec F S16777216x4 .f32) : IVec S_ 1 :=
  let main_v0 : FVec F S16777216x4 .f32 := Host.absf main_arg0
  let main_cst : FVec F S_ .f32 := constant S_ .f32 0x7F800000#32
  let main_v1 : FVec F S16777216x4 .f32 := broadcastInDim S16777216x4 ![] bcast_S_S16777216x4 main_cst
  let main_v2 : IVec S16777216x4 1 := cmpf .olt main_v0 main_v1
  let main_c : IVec S_ 1 := constantI S_ 1 1#1
  let main_v3 : IVec S_ 1 := (fun x v => Host.reduce IntOp.andi x v reducesTo_S16777216x4_S_d0_1 h_S_) main_v2 main_c
  main_v3
-- ==== Kernel.lean ====
abbrev S16777216x4 : Shape := ⟨2, ![16777216, 4]⟩
abbrev S262144x4 : Shape := ⟨2, ![262144, 4]⟩
abbrev S262144x1 : Shape := ⟨2, ![262144, 1]⟩
abbrev S262144 : Shape := ⟨1, ![262144]⟩

abbrev nBuf : Space → Nat
  | .hbm => 2
  | .vmem => 4
  | .smem => 0
  | _ => 0

abbrev bufTy : (tb : Table) → Fin (tcTables nBuf tb) → BufTy
  | .hbm, ⟨0, _⟩ => ⟨S16777216x4, .f32⟩
  | .hbm, ⟨1, _⟩ => ⟨S16777216x4, .f32⟩
  | .local _ .vmem, ⟨0, _⟩ => ⟨S262144x4, .f32⟩
  | .local _ .vmem, ⟨1, _⟩ => ⟨S262144x4, .f32⟩
  | .local _ .vmem, ⟨2, _⟩ => ⟨S262144x4, .f32⟩
  | .local _ .vmem, ⟨3, _⟩ => ⟨S262144x4, .f32⟩
  | _, _ => ⟨S16777216x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S262144x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S262144x4_S262144x4_0_0 : ∀ a, (![0, 0] : Fin 2 → Nat) a + S262144x4.size a ≤ S262144x4.size a
  h_S262144x4 : 0 < S262144x4.numel
  slices_S262144x4_o0_0_S262144x1 : S262144x4.Slices ![0, 0] S262144x1
  shapeCasts_S262144x1_S262144 : S262144x1.ShapeCasts S262144
  shapeCasts_S262144_S262144x1 : S262144.ShapeCasts S262144x1
  concatenates_S262144x1_S262144x1_S262144x1_S262144x1_S262144x4_d1 : Shape.Concatenates [S262144x1, S262144x1, S262144x1, S262144x1] S262144x4 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144x4.size a ≤ S16777216x4.size a
  hwx0_0 : ∀ i : grid0.Coords, EltTy.bits .f32 = 32 ∨ (Rect.block (s := S16777216x4) S262144x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144x4.size a ≤ S16777216x4.size a
  hwx0_1 : ∀ i : grid0.Coords, EltTy.bits .f32 = 32 ∨ (Rect.block (s := S16777216x4) S262144x4.size (cc0_transform_1 i) (hinb0_1 i)).WholeWords (EltTy.packing .f32)

variable [Facts₀]

abbrev win0_0 : Pipeline.Window sig grid0 :=
  Pipeline.Window.ofSpec (Memref.whole main_arg0) S262144x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S262144x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x4 : Shape := ⟨2, ![16777216, 4]⟩
abbrev S16777216x1 : Shape := ⟨2, ![16777216, 1]⟩
abbrev S16777216 : Shape := ⟨1, ![16777216]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16777216x4, .f32⟩
  | .hbm, ⟨1, _⟩ => ⟨S16777216x1, .f32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216x1, .f32⟩
  | .hbm, ⟨15, _⟩ => ⟨S16777216x1, .f32⟩
  | .hbm, ⟨16, _⟩ => ⟨S16777216x1, .f32⟩
  | .hbm, ⟨17, _⟩ => ⟨S16777216x1, .f32⟩
  | .hbm, ⟨18, _⟩ => ⟨S16777216x4, .f32⟩
  | _, _ => ⟨S16777216x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]

class Facts₀ : Prop where
  slices_S16777216x4_S16777216x1_0_0 : S16777216x4.Slices ![0, 0] S16777216x1
  shapeCasts_S16777216x1_S16777216 : S16777216x1.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x1_S16777216x1_S16777216x4_d1 : Shape.Concatenates [S16777216x1, S16777216x1, S16777216x1, S16777216x1] S16777216x4 1

variable [Facts₀]

class Facts : Prop extends Facts₀ where

variable [Facts]
-- ==== Proof.Probs.lean ====
/-
  The mathematics both programs compute, stated once and free of either program.

  A row of the input holds an angle θ in its column 0 (the other three columns are never read). With
  h = θ · ½, c = cos h and s = sin h, the row of the result holds the four outcome probabilities of
  the two-qubit circuit RX(θ) ⊗ RY(θ) followed by CNOT, started from |00⟩:

      column 0:  c²·c²     column 1:  c²·s²     column 2:  s²·s²     column 3:  s²·c²

  each square and each product formed exactly in this order. The cosine and the sine are parameters:
  the kernel applies the vector unit's functions and the reference the host's; on the extended reals
  the two are one function, which is all the equivalence needs. No law of arithmetic is used: the two
  programs form the same products of the same factors.
-/
import Idealize.ShloMosaic.PureOps.Ideal
import Idealize.ShloMosaic.Lib.ValueIdx

noncomputable section

namespace Cert.QProbs

open Idealize.ShloMosaic Idealize.ShloMosaic.ValueIdx

variable {F : FTy → Type} [FloatOps F]

/-- The half angle θ · ½ (the literal is the f32 word of 0.5). -/
def halfAngle (θ : F .f32) : F .f32 := FloatOps.mulf θ (FloatOps.ofBits .f32 0x3F000000#32)

/-- The square of a trigonometric function `f` at the half angle: f(θ/2) · f(θ/2). -/
def sqAt (f : F .f32 → F .f32) (θ : F .f32) : F .f32 := FloatOps.mulf (f (halfAngle θ)) (f (halfAngle θ))

/-- The probability of outcome `j` at angle θ: c⁴, c²s², s⁴, s²c² for j = 0, 1, 2, 3, where c² and s² are the
    squares of `cosf` and `sinf` at the half angle. -/
def prob (cosf sinf : F .f32 → F .f32) (θ : F .f32) : Fin 4 → F .f32
  | ⟨0, _⟩ => FloatOps.mulf (sqAt cosf θ) (sqAt cosf θ)
  | ⟨1, _⟩ => FloatOps.mulf (sqAt cosf θ) (sqAt sinf θ)
  | ⟨2, _⟩ => FloatOps.mulf (sqAt sinf θ) (sqAt sinf θ)
  | ⟨3, _⟩ => FloatOps.mulf (sqAt sinf θ) (sqAt cosf θ)

/-- The shape of the argument and of the result: 16777216 rows of 4 columns. -/
abbrev Arr : Shape := ⟨2, ![16777216, 4]⟩

/-- Where the angle of entry `i`'s row sits: the same row, column 0. -/
abbrev angleIdx (i : Arr.Idx) : Arr.Idx := fun a => match a with
  | ⟨0, _⟩ => ⟨(i 0).val, (i 0).isLt⟩
  | ⟨1, _⟩ => ⟨0, by show 0 < 4; omega⟩

/-- Which outcome entry `i` holds: its column. -/
abbrev outcome (i : Arr.Idx) : Fin 4 := ⟨(i 1).val, (i 1).isLt⟩

/-- THE RESULT as one function of the argument array: entry (r, j) is the probability of outcome `j` at the angle
    held in column 0 of row `r`. -/
def table (cosf sinf : F .f32 → F .f32) (x : Arr.Idx → F .f32) : Arr.Idx → F .f32 :=
  fun i => prob cosf sinf (x (angleIdx i)) (outcome i)

/-- On the extended reals the host's cosine and sine are the vector unit's: both are the real functions on the
    finite numbers, with the same conventions at the infinities. -/
theorem table_host_eq (x : Arr.Idx → Ideal .f32) :
    table (F := Ideal) (FloatOps.hostUnary .cos) (FloatOps.hostUnary .sin) x = table FloatOps.cos FloatOps.sin x := rfl

end Cert.QProbs

end
-- ==== Proof.KernelBlock.lean ====
/-
  What the kernel's body leaves in one block of the result, entry by entry.

  The body loads a block of 262144 rows, takes column 0 as a vector of angles, halves it, takes cosine and sine,
  squares both, forms the four products c²·c², c²·s², s²·s², s²·c² as four vectors, turns each into a column and
  joins the four columns side by side. So entry (r, j) of the block it stores is the probability of outcome `j`
  at the angle in column 0 of row `r` of the block it loaded: nothing else of the loaded block is read.
-/
import proofs.«139065_j45818711114236_1_alg».proof.Proof.Gen.KernelIdeal.Value
import proofs.«139065_j45818711114236_1_alg».proof.Proof.Probs
import Idealize.ShloMosaic.Lib.Pipeline.Value

noncomputable section

namespace Cert.KernelIdeal.Block

open Cert.KernelIdeal Cert.KernelIdeal.Gen Idealize.ShloMosaic Idealize.ShloMosaic.TcCoe Idealize.SL.Sem Cert.QProbs

variable {F : FTy → Type} [FloatOps F]

/-- Where the angle of block entry `y`'s row sits in the block: the same row, column 0. -/
abbrev angleAt (y : S262144x4.Idx) : S262144x4.Idx := fun a => match a with
  | ⟨0, _⟩ => ⟨(y 0).val, (y 0).isLt⟩
  | ⟨1, _⟩ => ⟨0, by show 0 < 4; omega⟩

/-- The row of block entry `y`, as an index of a vector of 262144 angles. -/
abbrev rowOf (y : S262144x4.Idx) : S262144.Idx := fun a => match a with
  | ⟨0, _⟩ => ⟨(y 0).val, (y 0).isLt⟩

/-- The row of block entry `y`, as an index of a one-column matrix. -/
abbrev colIdx (y : S262144x4.Idx) : S262144x1.Idx := fun a => match a with
  | ⟨0, _⟩ => ⟨(y 0).val, (y 0).isLt⟩
  | ⟨1, _⟩ => ⟨0, by show 0 < 1; omega⟩

/-- Column 0 of the loaded block, flattened to a vector, read at row `r`: the block's entry (r, 0). -/
theorem angle_at (P0 : Vec F S262144x4 .f32) (y : S262144x4.Idx) :
    shapeCast S262144 (extractStridedSlice S262144x1 ![0, 0] P0 slices_S262144x4_o0_0_S262144x1) shapeCasts_S262144x1_S262144 (rowOf y)
      = P0 (angleAt y) := by
  refine (shapeCast_apply _ shapeCasts_S262144x1_S262144 (rowOf y) (colIdx y)
    (by rewrite [Shape.rowMajor_val_two, Shape.rowMajor_val_one]; show (y 0).val * 1 + 0 = (y 0).val; omega)).trans ?_
  exact extractStridedSlice_apply ![0, 0] P0 slices_S262144x4_o0_0_S262144x1 (colIdx y) (angleAt y) (fun a => match a with
    | ⟨0, _⟩ => by show (y 0).val = 0 + (y 0).val; omega
    | ⟨1, _⟩ => by show 0 = 0 + 0; omega)

/-- A vector of 262144 values turned into a column, read at the row of `y`: the vector at that row. -/
theorem column_at (v : FVec F S262144 .f32) (y : S262144x4.Idx) :
    shapeCast S262144x1 v shapeCasts_S262144_S262144x1 (Value.ix1_0 y) = v (rowOf y) :=
  shapeCast_apply v shapeCasts_S262144_S262144x1 (Value.ix1_0 y) (rowOf y)
    (by rewrite [Shape.rowMajor_val_two, Shape.rowMajor_val_one]; show (y 0).val = (y 0).val * 1 + 0; omega)

/-- THE BLOCK THE BODY STORES, entry by entry: the probability of the entry's column at the angle in column 0 of
    the entry's row of the loaded block. -/
theorem stored_at (P0 : Vec F S262144x4 .f32) (y : S262144x4.Idx) :
    Value.E1 P0 y = prob FloatOps.cos FloatOps.sin (P0 (angleAt y)) (Value.csel1_0 y) := by
  show Value.Cat1_0 P0 (Value.csel1_0 y) (Value.ix1_0 y) = _
  generalize Value.csel1_0 y = n
  match n with
  | ⟨0, _⟩ =>
    refine (column_at _ y).trans ?_
    simp only [mulf, cos, sin, broadcast, angle_at P0 y]
    rfl
  | ⟨1, _⟩ =>
    refine (column_at _ y).trans ?_
    simp only [mulf, cos, sin, broadcast, angle_at P0 y]
    rfl
  | ⟨2, _⟩ =>
    refine (column_at _ y).trans ?_
    simp only [mulf, cos, sin, broadcast, angle_at P0 y]
    rfl
  | ⟨3, _⟩ =>
    refine (column_at _ y).trans ?_
    simp only [mulf, cos, sin, broadcast, angle_at P0 y]
    rfl

/-- The body's result for the output window, as a function of the loaded block: `stored_at` at every entry (the one
    store covers the whole block, and the load reads the whole block). -/
theorem out_eq (x0 : Vec F S262144x4 .f32) :
    out0_1 x0 = fun y => prob FloatOps.cos FloatOps.sin (x0 (angleAt y)) (Value.csel1_0 y) := by
  funext y
  unfold out0_1
  rw [Value.canon1_eq, stored_at]
  have hz : (![0, 0] : Fin 2 → Nat) = fun _ => 0 := funext fun a => by fin_cases a <;> rfl
  rw [View.ld_unit_zero (S := S262144x4) hz]

end Cert.KernelIdeal.Block

end
-- ==== Proof.KernelArray.lean ====
/-
  From blocks to the array: what the kernel leaves in the result array.

  The grid has 64 points. Point `t` loads rows 262144·t … 262144·t + 262143 of the argument (all four columns) and
  stores the same rows of the result: both windows' blocks sit at block index (t, 0). By the block lemma the stored
  block's entry (r, j) is the probability of outcome `j` at the angle in column 0 of row `r` of the loaded block,
  which is row 262144·t + r of the argument — so what point `t` writes back is block `t` of the table of
  probabilities of the whole argument. Row `r` of the result lies in the block of point `r / 262144`, so the 64
  blocks cover the result, and the array ends as the table.
-/
import proofs.«139065_j45818711114236_1_alg».proof.Proof.KernelBlock

noncomputable section

namespace Cert.KernelIdeal.Array

open Cert.KernelIdeal Cert.KernelIdeal.Gen Idealize.ShloMosaic Idealize.ShloMosaic.TcCoe Idealize.SL.Sem Cert.QProbs
open Idealize.ShloMosaic.Pipeline (Dat)

variable {F : FTy → Type} [FloatOps F]
variable (m : (ℓ : Loc nD τ sig) → Buf (Elt F) ℓ) (ρ : Dev nD → PrngReg)

/-- The printed index maps over the grid: the input's block and the output's block have the same block row, and
    both sit at block column 0. -/
theorem index_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every one of the 64 block rows is some point's. -/
theorem index_onto : ∀ q : Fin 64, ∃ t : Fin cfg0.N, win0_1.index t = ![q.val, 0] :=
  (by decide +kernel : ∀ q : Fin 64, ∃ t : Fin grid0.N, win0_1.index t = ![q.val, 0])

/-- WHAT POINT `t` WRITES BACK is block `t` of the table of probabilities of the argument array. -/
theorem flushed_eq (c : Dev nD) (t : Fin cfg0.N) :
    (dats m 0 c).flushed 1 t
      = ((cfg0.win 1).blk t).view.read (Elt F) (table FloatOps.cos FloatOps.sin (V m c main_arg0)) := by
  rw [Value.flushed1, Block.out_eq (iblk m c 0 t)]
  obtain ⟨e0, e1, e2⟩ := index_facts t
  funext j
  show prob FloatOps.cos FloatOps.sin (V m c main_arg0 (((cfg0.win 0).blk t).view.emb (Block.angleAt j))) (Value.csel1_0 j)
    = prob FloatOps.cos FloatOps.sin (V m c main_arg0 (angleIdx (((cfg0.win 1).blk t).view.emb j))) (outcome (((cfg0.win 1).blk t).view.emb j))
  have h0 : ((cfg0.win 0).blk t).view.emb (Block.angleAt j) = angleIdx (((cfg0.win 1).blk t).view.emb j) := by
    funext a; apply Fin.ext
    match a with
    | ⟨0, _⟩ => show win0_0.index t (0 : Fin 2) * 262144 + 1 * (j 0).val = win0_1.index t (0 : Fin 2) * 262144 + 1 * (j 0).val; omega
    | ⟨1, _⟩ => show win0_0.index t (1 : Fin 2) * 4 + 1 * 0 = 0; omega
  have h1 : Value.csel1_0 j = outcome (((cfg0.win 1).blk t).view.emb j) :=
    Fin.ext (by show (j 1).val = win0_1.index t (1 : Fin 2) * 4 + 1 * (j 1).val; omega)
  rw [h0, h1]

/-- An index of the array is in point `t`'s block iff each coordinate is in the block's range on its axis. -/
theorem mem_blk (t : Fin cfg0.N) (i : S16777216x4.Idx) :
    i ∈ ((cfg0.win 1).blk t).view.set ↔ ∀ a : Fin 2, win0_1.index t a * S262144x4.size a ≤ (i a).val ∧ (i a).val < win0_1.index t a * S262144x4.size a + S262144x4.size a := by
  show i ∈ ((View.whole main_v0).slice (win0_1.rect t)).set ↔ _
  rw [View.set_slice_whole, Rect.mem_set_unit]
  exact Iff.rfl

/-- THE BLOCKS COVER THE RESULT: row `r` lies in the block of point `r / 262144`. -/
theorem cover (i : S16777216x4.Idx) :
    ∃ t : Fin cfg0.N, (cfg0.win 1).flush t = true ∧ i ∈ ((cfg0.win 1).blk t).view.set := by
  have hi0 : (i 0).val < 16777216 := (i 0).isLt
  have hi1 : (i 1).val < 4 := (i 1).isLt
  obtain ⟨t, ht⟩ := index_onto ⟨(i 0).val / 262144, by omega⟩
  have q0 : win0_1.index t (0 : Fin 2) = (i 0).val / 262144 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 262144 ≤ (i 0).val ∧ (i 0).val < win0_1.index t (0 : Fin 2) * 262144 + 262144; omega
  | ⟨1, _⟩ => show win0_1.index t (1 : Fin 2) * 4 ≤ (i 1).val ∧ (i 1).val < win0_1.index t (1 : Fin 2) * 4 + 4; omega

/-- THE RESULT ARRAY after the run is the table of probabilities of the argument array. -/
theorem final (c : Dev nD) :
    (dats m 0 c).arrAt 1 cfg0.N = table FloatOps.cos FloatOps.sin (m ((c : Thread nD τ).loc main_arg0)) :=
  (dats m 0 c).arrAt_eq_of_cover 1 (table FloatOps.cos FloatOps.sin (V m c main_arg0)) (fun t _ => flushed_eq m c t) cover

/-- The kernel's run: every weakly fair execution terminates with the result array at the table of probabilities of
    the argument, the argument unchanged. -/
theorem run : θ_run defs (onTc (τ := τ) (main (F := F))) ⟨m, fun _ => 0, ρ⟩ fun r => ∀ c : Dev nD,
      r.2.mem ((c : Thread nD τ).loc main_v0) = table FloatOps.cos FloatOps.sin (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Array

end
-- ==== Proof.RefTable.lean ====
/-
  The reference computes the table of probabilities.

  The reference slices column 0 off the argument, flattens it to a vector of 16777216 angles, halves it, takes the
  host's cosine and sine, squares both, forms the four products c²·c², c²·s², s²·s², s²·c², turns each into a column and
  joins the four columns side by side. Entry (r, j) of the joined array comes from column `j`'s row `r`, which is
  product `j` at the angle in column 0 of row `r` of the argument.
-/
import proofs.«139065_j45818711114236_1_alg».proof.Proof.Gen.ReferenceIdeal.Read
import proofs.«139065_j45818711114236_1_alg».proof.Proof.Probs
import Idealize.ShloMosaic.Lib.Pipeline.Value

noncomputable section

namespace Cert.ReferenceIdeal.RefTable

open Cert.ReferenceIdeal Cert.ReferenceIdeal.Gen Cert.ReferenceIdeal.Read Idealize.ShloMosaic Idealize.ShloMosaic.TcCoe Idealize.SL.Sem Cert.QProbs

variable {F : FTy → Type} [FloatOps F]

/-- The four columns the reference joins, by number. -/
abbrev columns (x0 : (⟨S16777216x4, .f32⟩ : BufTy).Contents (Elt F)) : Fin 4 → (S16777216x1.Idx → F .f32) := fun n => match n with
  | ⟨0, _⟩ => val_main_v12 (F := F) x0
  | ⟨1, _⟩ => val_main_v13 (F := F) x0
  | ⟨2, _⟩ => val_main_v14 (F := F) x0
  | ⟨3, _⟩ => val_main_v15 (F := F) x0

/-- The row of entry `i`, as an index of a one-column matrix. -/
abbrev rowIdx (i : S16777216x4.Idx) : S16777216x1.Idx := fun a => match a with
  | ⟨0, _⟩ => ⟨(i 0).val, (i 0).isLt⟩
  | ⟨1, _⟩ => ⟨0, by show 0 < 1; omega⟩

/-- The row of entry `i`, as an index of a vector of 16777216 angles. -/
abbrev rowOf (i : S16777216x4.Idx) : S16777216.Idx := fun a => match a with
  | ⟨0, _⟩ => ⟨(i 0).val, (i 0).isLt⟩

/-- Entry `i` of the joined array is row `i 0` of the column numbered by `i`'s own column (the columns are one wide). -/
theorem joined_at (x0 : (⟨S16777216x4, .f32⟩ : BufTy).Contents (Elt F)) (i : S16777216x4.Idx) :
    val_main_v16 (F := F) x0 i = columns x0 (outcome i) (rowIdx i) := by
  unfold val_main_v16
  show concatenate S16777216x4 1 (List.ofFn fun n : Fin 4 => (⟨S16777216x1, columns x0 n⟩ : (s : Shape) × (s.Idx → _))) _ i = _
  exact concatenate_ofFn_apply (t := S16777216x4) (s₁ := S16777216x1) (1 : Fin 2) (columns x0) _ rfl 1 rfl i (outcome i)
    (by show (i 1).val / 1 = (i 1).val; omega) (rowIdx i) (by show 0 = (i 1).val % 1; omega)
    (fun b hb => by match b with | ⟨0, _⟩ => rfl | ⟨1, _⟩ => exact absurd rfl hb)

/-- The half angle the reference forms at row `r`: half of the argument's entry (r, 0). -/
theorem half_at (x0 : (⟨S16777216x4, .f32⟩ : BufTy).Contents (Elt F)) (i : S16777216x4.Idx) :
    val_main_v3 (F := F) x0 (rowOf i) = halfAngle (x0 (angleIdx i)) := by
  rw [val_main_v3_apply, val_main_v1_apply, val_main_v0_apply, val_main_v2_apply, val_main_cst_apply]
  have hi : idx_main_v0 (idx_main_v1 (rowOf i)) = angleIdx i := by
    funext a; apply Fin.ext
    match a with
    | ⟨0, _⟩ => show (i 0).val / 1 = (i 0).val; omega
    | ⟨1, _⟩ => rfl
  rw [hi]; rfl

/-- The squared cosine at row `r`. -/
theorem cos2_at (x0 : (⟨S16777216x4, .f32⟩ : BufTy).Contents (Elt F)) (i : S16777216x4.Idx) :
    val_main_v5 (F := F) x0 (rowOf i) = sqAt (FloatOps.hostUnary .cos) (x0 (angleIdx i)) := by
  rw [val_main_v5_apply, val_main_v4_apply, half_at]; rfl

/-- The squared sine at row `r`. -/
theorem sin2_at (x0 : (⟨S16777216x4, .f32⟩ : BufTy).Contents (Elt F)) (i : S16777216x4.Idx) :
    val_main_v7 (F := F) x0 (rowOf i) = sqAt (FloatOps.hostUnary .sin) (x0 (angleIdx i)) := by
  rw [val_main_v7_apply, val_main_v6_apply, half_at]; rfl

/-- THE REFERENCE'S RESULT is the table of probabilities of its argument, with the host's cosine and sine. -/
theorem result_eq (x0 : (⟨S16777216x4, .f32⟩ : BufTy).Contents (Elt F)) :
    val_main_v16 (F := F) x0 = table (FloatOps.hostUnary .cos) (FloatOps.hostUnary .sin) x0 := by
  funext i
  rw [joined_at]
  show columns x0 (outcome i) (rowIdx i) = prob (FloatOps.hostUnary .cos) (FloatOps.hostUnary .sin) (x0 (angleIdx i)) (outcome i)
  generalize outcome i = n
  match n with
  | ⟨0, _⟩ =>
    show val_main_v12 (F := F) x0 (rowIdx i) = _
    rw [val_main_v12_apply, val_main_v8_apply]
    show FloatOps.mulf (val_main_v5 (F := F) x0 (rowOf i)) (val_main_v5 (F := F) x0 (rowOf i)) = _
    rw [cos2_at]; rfl
  | ⟨1, _⟩ =>
    show val_main_v13 (F := F) x0 (rowIdx i) = _
    rw [val_main_v13_apply, val_main_v9_apply]
    show FloatOps.mulf (val_main_v5 (F := F) x0 (rowOf i)) (val_main_v7 (F := F) x0 (rowOf i)) = _
    rw [cos2_at, sin2_at]; rfl
  | ⟨2, _⟩ =>
    show val_main_v14 (F := F) x0 (rowIdx i) = _
    rw [val_main_v14_apply, val_main_v10_apply]
    show FloatOps.mulf (val_main_v7 (F := F) x0 (rowOf i)) (val_main_v7 (F := F) x0 (rowOf i)) = _
    rw [sin2_at]; rfl
  | ⟨3, _⟩ =>
    show val_main_v15 (F := F) x0 (rowIdx i) = _
    rw [val_main_v15_apply, val_main_v11_apply]
    show FloatOps.mulf (val_main_v7 (F := F) x0 (rowOf i)) (val_main_v5 (F := F) x0 (rowOf i)) = _
    rw [sin2_at, cos2_at]; rfl

end Cert.ReferenceIdeal.RefTable

end
-- ==== Proof.lean ====
/-
  The kernel and its reference compute the same table of outcome probabilities.

  Both programs read only column 0 of each row of the argument, the angle θ, and write to the row the four numbers
  c²·c², c²·s², s²·s², s²·c², where c = cos(θ·½) and s = sin(θ·½), every product formed in the same order from the same
  factors. The kernel does it block by block, 64 blocks of 262144 rows (Proof/KernelBlock.lean: one block;
  Proof/KernelArray.lean: the blocks cover the result, so the array ends as the table of Proof/Probs.lean); the
  reference does it on the whole array at once (Proof/RefTable.lean). The kernel's cosine and sine are the vector
  unit's and the reference's the host's; on the extended reals these are the same functions, so the two tables are
  one. No law of arithmetic and no finiteness of the input is needed: the precondition is never opened.

  The ideal pass rewrote nothing in the kernel, so that the idealized kernel is the kernel's sanctioned idealization
  asks nothing. The three frames are the generated frame runs.
-/
import proofs.«139065_j45818711114236_1_alg».proof.Defs
import proofs.«139065_j45818711114236_1_alg».proof.Proof.Gen.Kernel
import proofs.«139065_j45818711114236_1_alg».proof.Proof.Gen.Kernel.Skeleton
import proofs.«139065_j45818711114236_1_alg».proof.Proof.Gen.Kernel.Launch
import proofs.«139065_j45818711114236_1_alg».proof.Proof.Gen.Kernel.Points
import proofs.«139065_j45818711114236_1_alg».proof.Proof.Gen.Kernel.Frame
import proofs.«139065_j45818711114236_1_alg».proof.Proof.Gen.KernelIdeal
import proofs.«139065_j45818711114236_1_alg».proof.Proof.Gen.KernelIdeal.Skeleton
import proofs.«139065_j45818711114236_1_alg».proof.Proof.Gen.KernelIdeal.Launch
import proofs.«139065_j45818711114236_1_alg».proof.Proof.Gen.KernelIdeal.Points
import proofs.«139065_j45818711114236_1_alg».proof.Proof.Gen.KernelIdeal.Frame
import proofs.«139065_j45818711114236_1_alg».proof.Proof.Gen.ReferenceIdeal
import proofs.«139065_j45818711114236_1_alg».proof.Proof.Gen.Pre_finite_inputs
import proofs.«139065_j45818711114236_1_alg».proof.Proof.Gen.KernelIdeal.Value
import proofs.«139065_j45818711114236_1_alg».proof.Proof.Gen.ReferenceIdeal.Run
import proofs.«139065_j45818711114236_1_alg».proof.Proof.Gen.ReferenceIdeal.Read
import proofs.«139065_j45818711114236_1_alg».proof.Proof.Probs
import proofs.«139065_j45818711114236_1_alg».proof.Proof.KernelBlock
import proofs.«139065_j45818711114236_1_alg».proof.Proof.KernelArray
import proofs.«139065_j45818711114236_1_alg».proof.Proof.RefTable
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its argument as it was. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its argument as it was: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals, from memories that agree on the argument, the kernel's result array and the reference's both
    end as the table of probabilities of that argument: the kernel's by its blocks, the reference's by its operations read
    one at a time, the host's cosine and sine being the vector unit's there. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.QProbs.table (F := Ideal) FloatOps.cos FloatOps.sin
      (m ((c.tc : Thread Cert.KernelIdeal.nD Cert.KernelIdeal.τ).loc Cert.KernelIdeal.main_arg0)),
    Cert.KernelIdeal.Array.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefTable.result_eq, hagree c]
  exact Cert.QProbs.table_host_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
